-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S30720x1024 : Shape := ⟨2, ![30720, 1024]⟩
abbrev S1024x1024 : Shape := ⟨2, ![1024, 1024]⟩
abbrev S30 : Shape := ⟨1, ![30]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S30720x1024 : S_.BroadcastsInDim S30720x1024 (![] : Fin 0 → Fin S30720x1024.rank)
  reducesTo_S30720x1024_S_d0_1 : S30720x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S30 : S_.BroadcastsInDim S30 (![] : Fin 0 → Fin S30.rank)
  reducesTo_S30_S_d0 : S30.ReducesTo [0] S_

variable [Facts]

def fn_part1 {F : FTy → Type} [FloatOps F] (main_v13 : IVec S_ 1) (main_v16 : IVec S30 1) : IVec S_ 1 :=
  let main_c_5 : IVec S_ 1 := constantI S_ 1 1#1
  let main_v17 : IVec S_ 1 := (fun x v => Host.reduce IntOp.andi x v reducesTo_S30_S_d0 h_S_) main_v16 main_c_5
  let main_v18 : IVec S_ 1 := andi main_v13 main_v17
  main_v18

def fn {F : FTy → Type} [FloatOps F] (main_arg0 : FVec F S2048x1024 .f32) (main_arg1 : FVec F S30720x1024 .f32) (main_arg2 : FVec F S1024x1024 .f32) (main_arg3 : FVec F S30 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S30720x1024 .f32 := Host.absf main_arg1
  let main_cst_0 : FVec F S_ .f32 := constant S_ .f32 0x7F800000#32
  let main_v5 : FVec F S30720x1024 .f32 := broadcastInDim S30720x1024 ![] bcast_S_S30720x1024 main_cst_0
  let main_v6 : IVec S30720x1024 1 := cmpf .olt main_v4 main_v5
  let main_c_1 : IVec S_ 1 := constantI S_ 1 1#1
  let main_v7 : IVec S_ 1 := (fun x v => Host.reduce IntOp.andi x v reducesTo_S30720x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S30 .f32 := Host.absf main_arg3
  let main_cst_4 : FVec F S_ .f32 := constant S_ .f32 0x7F800000#32
  let main_v15 : FVec F S30 .f32 := broadcastInDim S30 ![] bcast_S_S30 main_cst_4
  let main_v16 : IVec S30 1 := cmpf .olt main_v14 main_v15
  fn_part1 (F := F) main_v13 main_v16
-- ==== Kernel.lean ====
abbrev S2048x1024 : Shape := ⟨2, ![2048, 1024]⟩
abbrev S30720x1024 : Shape := ⟨2, ![30720, 1024]⟩
abbrev S1024x1024 : Shape := ⟨2, ![1024, 1024]⟩
abbrev S30 : Shape := ⟨1, ![30]⟩
abbrev S8x128x30x1024 : Shape := ⟨4, ![8, 128, 30, 1024]⟩
abbrev S8x30x128x1024 : Shape := ⟨4, ![8, 30, 128, 1024]⟩
abbrev S1x30 : Shape := ⟨2, ![1, 30]⟩
abbrev S512x128 : Shape := ⟨2, ![512, 128]⟩
abbrev S128x1024 : Shape := ⟨2, ![128, 1024]⟩
abbrev S3840x1024 : Shape := ⟨2, ![3840, 1024]⟩
abbrev S512x1024 : Shape := ⟨2, ![512, 1024]⟩
abbrev S512x1x128 : Shape := ⟨3, ![512, 1, 128]⟩
abbrev S1x30x1 : Shape := ⟨3, ![1, 30, 1]⟩
abbrev S512x30x128 : Shape := ⟨3, ![512, 30, 128]⟩
abbrev S512x3840 : Shape := ⟨2, ![512, 3840]⟩

abbrev nBuf : Space → Nat
  | .hbm => 12
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S30720x1024, .f32⟩
  | .hbm, ⟨2, _⟩ => ⟨S1024x1024, .f32⟩
  | .hbm, ⟨3, _⟩ => ⟨S30, .f32⟩
  | .hbm, ⟨4, _⟩ => ⟨S1024x1024, .f32⟩
  | .hbm, ⟨5, _⟩ => ⟨S1024x1024, .bf16⟩
  | .hbm, ⟨6, _⟩ => ⟨S8x128x30x1024, .f32⟩
  | .hbm, ⟨7, _⟩ => ⟨S8x30x128x1024, .f32⟩
  | .hbm, ⟨8, _⟩ => ⟨S30720x1024, .f32⟩
  | .hbm, ⟨9, _⟩ => ⟨S30720x1024, .bf16⟩
  | .hbm, ⟨10, _⟩ => ⟨S1x30, .f32⟩
  | .hbm, ⟨11, _⟩ => ⟨S2048x1024, .f32⟩
  | .local _ .vmem, ⟨0, _⟩ => ⟨S512x128, .f32⟩
  | .local _ .vmem, ⟨1, _⟩ => ⟨S512x128, .f32⟩
  | .local _ .vmem, ⟨2, _⟩ => ⟨S128x1024, .bf16⟩
  | .local _ .vmem, ⟨3, _⟩ => ⟨S128x1024, .bf16⟩
  | .local _ .vmem, ⟨4, _⟩ => ⟨S3840x1024, .bf16⟩
  | .local _ .vmem, ⟨5, _⟩ => ⟨S3840x1024, .bf16⟩
  | .local _ .vmem, ⟨6, _⟩ => ⟨S1x30, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3840x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S1024x1024_S1024x1024_1_0 : S1024x1024.Transposes [1, 0] S1024x1024
  bitsLt_bf16_f32 : FTy.bits .bf16 < FTy.bits .f32
  shapeCasts_S30720x1024_S8x128x30x1024 : S30720x1024.ShapeCasts S8x128x30x1024
  transposes_S8x128x30x1024_S8x30x128x1024_0_2_1_3 : S8x128x30x1024.Transposes [0, 2, 1, 3] S8x30x128x1024
  shapeCasts_S8x30x128x1024_S30720x1024 : S8x30x128x1024.ShapeCasts S30720x1024
  shapeCasts_S30_S1x30 : S30.ShapeCasts S1x30
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x128_S512x128_0_0 : ∀ a, (![0, 0] : Fin 2 → Nat) a + S512x128.size a ≤ S512x128.size a
  h_S512x128 : 0 < S512x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x30_S1x30_0_0 : ∀ a, (![0, 0] : Fin 2 → Nat) a + S1x30.size a ≤ S1x30.size a
  h_S1x30 : 0 < S1x30.numel
  shapeCasts_S1x30_S30 : S1x30.ShapeCasts S30
  shapeCasts_S512x128_S512x1x128 : S512x128.ShapeCasts S512x1x128
  shapeCasts_S30_S1x30x1 : S30.ShapeCasts S1x30x1
  broadcasts_S512x1x128_S512x30x128 : S512x1x128.Broadcasts S512x30x128
  broadcasts_S1x30x1_S512x30x128 : S1x30x1.Broadcasts S512x30x128
  shapeCasts_S512x30x128_S512x3840 : S512x30x128.ShapeCasts S512x3840
  inb_S3840x1024_S3840x1024_0_0 : ∀ a, (![0, 0] : Fin 2 → Nat) a + S3840x1024.size a ≤ S3840x1024.size a
  h_S3840x1024 : 0 < S3840x1024.numel
  shapeCasts_S3840x1024_S3840x1024 : S3840x1024.ShapeCasts S3840x1024
  dot_S512x128_S128x1024_S512x1024_1_0_0_1_n_n_wf : DotDims.WF S512x128 S128x1024 S512x1024 [1] [0] [0] [1] [] []
  dot_S512x3840_S3840x1024_S512x1024_1_0_0_1_n_n_wf : DotDims.WF S512x3840 S3840x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x1024.size a
  hwx0_0 : ∀ i : grid0.Coords, EltTy.bits .f32 = 32 ∨ (Rect.block (s := S2048x1024) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S1024x1024.size a
  hwx0_1 : ∀ i : grid0.Coords, EltTy.bits .bf16 = 32 ∨ (Rect.block (s := S1024x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3840x1024.size a ≤ S30720x1024.size a
  hwx0_2 : ∀ i : grid0.Coords, EltTy.bits .bf16 = 32 ∨ (Rect.block (s := S30720x1024) S3840x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x30.size a ≤ S1x30.size a
  hwx0_3 : ∀ i : grid0.Coords, EltTy.bits .f32 = 32 ∨ (Rect.block (s := S1x30) S1x30.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x1024.size a
  hwx0_4 : ∀ i : grid0.Coords, EltTy.bits .f32 = 32 ∨ (Rect.block (s := S2048x1024) S512x1024.size (cc0_transform_4 i) (hinb0_4 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x3840_S3840x1024_S512x1024_1_0_0_1_n_n : DotDims S512x3840 S3840x1024 S512x1024 where
  lhsContracting := [1]
  rhsContracting := [0]
  lhsNonContracting := [0]
  rhsNonContracting := [1]
  lhsBatch := []
  rhsBatch := []
  wf := dot_S512x3840_S3840x1024_S512x1024_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3840x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x30.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x1024 : Shape := ⟨2, ![2048, 1024]⟩
abbrev S30720x1024 : Shape := ⟨2, ![30720, 1024]⟩
abbrev S1024x1024 : Shape := ⟨2, ![1024, 1024]⟩
abbrev S30 : Shape := ⟨1, ![30]⟩
abbrev S2048x1024x1 : Shape := ⟨3, ![2048, 1024, 1]⟩
abbrev S1x1x30 : Shape := ⟨3, ![1, 1, 30]⟩
abbrev S2048x1024x30 : Shape := ⟨3, ![2048, 1024, 30]⟩
abbrev S_ : Shape := ⟨0, ![]⟩
abbrev S2048x30720 : Shape := ⟨2, ![2048, 30720]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S30720x1024, .f32⟩
  | .hbm, ⟨2, _⟩ => ⟨S1024x1024, .f32⟩
  | .hbm, ⟨3, _⟩ => ⟨S30, .f32⟩
  | .hbm, ⟨4, _⟩ => ⟨S2048x1024, .f32⟩
  | .hbm, ⟨5, _⟩ => ⟨S2048x1024x1, .f32⟩
  | .hbm, ⟨6, _⟩ => ⟨S1x1x30, .f32⟩
  | .hbm, ⟨7, _⟩ => ⟨S2048x1024x30, .f32⟩
  | .hbm, ⟨8, _⟩ => ⟨S2048x1024x30, .f32⟩
  | .hbm, ⟨9, _⟩ => ⟨S2048x1024x30, .f32⟩
  | .hbm, ⟨10, _⟩ => ⟨S2048x1024x30, .f32⟩
  | .hbm, ⟨11, _⟩ => ⟨S_, .f32⟩
  | .hbm, ⟨12, _⟩ => ⟨S2048x1024x30, .f32⟩
  | .hbm, ⟨13, _⟩ => ⟨S2048x1024x30, .f32⟩
  | .hbm, ⟨14, _⟩ => ⟨S2048x1024x30, .f32⟩
  | .hbm, ⟨15, _⟩ => ⟨S2048x30720, .f32⟩
  | .hbm, ⟨16, _⟩ => ⟨S2048x1024, .f32⟩
  | .hbm, ⟨17, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S2048x1024_S2048x1024x1_0_1 : S2048x1024.BroadcastsInDim S2048x1024x1 (![0, 1] : Fin 2 → Fin S2048x1024x1.rank)
  bcast_S30_S1x1x30_2 : S30.BroadcastsInDim S1x1x30 (![2] : Fin 1 → Fin S1x1x30.rank)
  bcast_S2048x1024x1_S2048x1024x30_0_1_2 : S2048x1024x1.BroadcastsInDim S2048x1024x30 (![0, 1, 2] : Fin 3 → Fin S2048x1024x30.rank)
  bcast_S1x1x30_S2048x1024x30_0_1_2 : S1x1x30.BroadcastsInDim S2048x1024x30 (![0, 1, 2] : Fin 3 → Fin S2048x1024x30.rank)
  bcast_S_S2048x1024x30 : S_.BroadcastsInDim S2048x1024x30 (![] : Fin 0 → Fin S2048x1024x30.rank)
  shapeCasts_S2048x1024x30_S2048x30720 : S2048x1024x30.ShapeCasts S2048x30720
  dot_S2048x1024_S1024x1024_S2048x1024_1_1_0_0_n_n_wf : DotDims.WF S2048x1024 S1024x1024 S2048x1024 [1] [1] [0] [0] [] []
  dot_S2048x30720_S30720x1024_S2048x1024_1_0_0_1_n_n_wf : DotDims.WF S2048x30720 S30720x1024 S2048x1024 [1] [0] [0] [1] [] []

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x30720_S30720x1024_S2048x1024_1_0_0_1_n_n : DotDims S2048x30720 S30720x1024 S2048x1024 where
  lhsContracting := [1]
  rhsContracting := [0]
  lhsNonContracting := [0]
  rhsNonContracting := [1]
  lhsBatch := []
  rhsBatch := []
  wf := dot_S2048x30720_S30720x1024_S2048x1024_1_0_0_1_n_n_wf

class Facts : Prop extends Facts₀ where

variable [Facts]
-- ==== Proof.LibWholeStores.lean ====
/-
  A buffer stored whole and read back whole.

  When the LAST store into a buffer wrote the whole buffer, a load of the whole buffer reads that store's value,
  whatever the earlier stores were: an accumulator updated in place several times and read back between the updates.
  (The library has the case of exactly one store, `View.readCov_unit_zero`; this is the same fact with earlier stores
  underneath.)
-/
import Idealize.ShloMosaic.Lib.Pipeline.Value

noncomputable section

namespace Idealize.ShloMosaic.View

variable {Val : EltTy → Type} {S : Shape} {e : EltTy}

/-- A load of the whole buffer after a list of stores whose last one stored the whole buffer reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨⟨Rect.unit (fun _ => 0) S.size inb, w⟩, List.mem_cons_self .., mem_set_unit_zero rfl inb y⟩),
    canon_cons_unit_zero rfl, ld_unit_zero rfl]

end Idealize.ShloMosaic.View

end
-- ==== Proof.ScratchPieces.lean ====
/-
  What one grid point leaves in the accumulator and in the output block, as a value.

  The kernel's body at a point (m, k) updates a 512 × 1024 accumulator twice in place: it adds the product of the
  point's block of `x` with the block of the transposed base weights (`k0_pay2`), then the product of the block's
  radial basis values with the block of the regrouped spline weights (`k0_pay3`). At the first reduction step
  (k = 0) the accumulator is zeroed first (`k0_pay1`); at the last one (k = 7) the accumulator is then copied to the
  output block. Every store writes the whole buffer and every load reads the whole buffer, so each value read back
  is the value last stored, and the buffer ends at the second update of the first update of what it held (or of zero).
  Stated for any float instance.
-/
import proofs.«176416_j11879879540919_2_alg».proof.Proof.Gen.KernelIdeal.Frame
import proofs.«176416_j11879879540919_2_alg».proof.Proof.LibWholeStores
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offsets of a whole-buffer access, as the constant zero function. -/
theorem hz : (![0, 0] : Fin 2 → Nat) = fun _ => 0 := funext fun a => by fin_cases a <;> rfl

/-- The accumulator after a point's two updates, from the point's input blocks and what the accumulator held. -/
abbrev step (x0 : Vec F S512x128 .f32) (x1 : Vec F S128x1024 .bf16) (x2 : Vec F S3840x1024 .bf16)
    (x3 : Vec F S1x30 .f32) (acc : Vec F S512x1024 .f32) : Vec F S512x1024 .f32 :=
  k0_pay3 x0 x3 x2 (k0_pay2 x0 x1 acc)

/-- FIRST REDUCTION STEP (k = 0): the accumulator is zeroed, then updated twice. -/
theorem sout_A (c : Dev nD) (i : grid0.Coords) (a2 : Memref sig .tc .vmem S512x128 .f32) (h2 : a2.IsWhole) (a3 : Memref sig .tc .vmem S128x1024 .bf16) (h3 : a3.IsWhole) (a4 : Memref sig .tc .vmem S3840x1024 .bf16) (h4 : a4.IsWhole) (a5 : Memref sig .tc .vmem S1x30 .f32) (h5 : a5.IsWhole) (a6 : Memref sig .tc .vmem S512x1024 .f32) (h6 : a6.IsWhole) (a7 : Memref sig .tc .vmem S512x1024 .f32) (h7 : a7.IsWhole) (hc0 : cond0_0 i) (hc1 : ¬cond0_1 i) (x0 : Vec F S512x128 .f32) (x1 : Vec F S128x1024 .bf16) (x2 : Vec F S3840x1024 .bf16) (x3 : Vec F S1x30 .f32) :
    sout0_A_0 c i a2 h2 a3 h3 a4 h4 a5 h5 a6 h6 a7 h7 hc0 hc1 x0 x1 x2 x3 = step x0 x1 x2 x3 k0_pay1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  rw [View.canon_cons_unit_zero (S := S512x1024) hz]
  sl_unfold_words
  rw [View.readCov_cons_unit_zero (S := S512x1024) _ hz, View.readCov_unit_zero (S := S512x1024) _ hz]
  simp only [View.readAt_eq_ld, h2.read_unread, h3.read_unread, h4.read_unread, h5.read_unread, h7.read_unread, View.ld_unit_zero (S := S512x128) hz, View.ld_unit_zero (S := S128x1024) hz, View.ld_unit_zero (S := S3840x1024) hz, View.ld_unit_zero (S := S1x30) hz, View.ld_unit_zero (S := S512x1024) hz]

/-- A MIDDLE STEP (0 < k < 7): the accumulator the point before left is updated twice. -/
theorem sout_B (c : Dev nD) (i : grid0.Coords) (a2 : Memref sig .tc .vmem S512x128 .f32) (h2 : a2.IsWhole) (a3 : Memref sig .tc .vmem S128x1024 .bf16) (h3 : a3.IsWhole) (a4 : Memref sig .tc .vmem S3840x1024 .bf16) (h4 : a4.IsWhole) (a5 : Memref sig .tc .vmem S1x30 .f32) (h5 : a5.IsWhole) (a6 : Memref sig .tc .vmem S512x1024 .f32) (h6 : a6.IsWhole) (a7 : Memref sig .tc .vmem S512x1024 .f32) (h7 : a7.IsWhole) (hc0 : ¬cond0_0 i) (hc1 : ¬cond0_1 i) (x0 : Vec F S512x128 .f32) (x1 : Vec F S128x1024 .bf16) (x2 : Vec F S3840x1024 .bf16) (x3 : Vec F S1x30 .f32) (xs0 : Vec F S512x1024 .f32) :
    sout0_B_0 c i a2 h2 a3 h3 a4 h4 a5 h5 a6 h6 a7 h7 hc0 hc1 x0 x1 x2 x3 xs0 = step x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_cons_unit_zero (S := S512x1024) hz]
  sl_unfold_words
  rw [View.readCov_unit_zero (S := S512x1024) _ hz]
  simp only [View.readAt_eq_ld, h2.read_unread, h3.read_unread, h4.read_unread, h5.read_unread, h7.read_unread, View.ld_unit_zero (S := S512x128) hz, View.ld_unit_zero (S := S128x1024) hz, View.ld_unit_zero (S := S3840x1024) hz, View.ld_unit_zero (S := S1x30) hz, View.ld_unit_zero (S := S512x1024) hz]

/-- THE LAST STEP (k = 7), the accumulator: updated twice, as at a middle step. -/
theorem sout_C (c : Dev nD) (i : grid0.Coords) (a2 : Memref sig .tc .vmem S512x128 .f32) (h2 : a2.IsWhole) (a3 : Memref sig .tc .vmem S128x1024 .bf16) (h3 : a3.IsWhole) (a4 : Memref sig .tc .vmem S3840x1024 .bf16) (h4 : a4.IsWhole) (a5 : Memref sig .tc .vmem S1x30 .f32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i) (x0 : Vec F S512x128 .f32) (x1 : Vec F S128x1024 .bf16) (x2 : Vec F S3840x1024 .bf16) (x3 : Vec F S1x30 .f32) (xs0 : Vec F S512x1024 .f32) :
    sout0_C_0 c i a2 h2 a3 h3 a4 h4 a5 h5 a6 h6 a7 h7 hc0 hc1 x0 x1 x2 x3 xs0 = step x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_cons_unit_zero (S := S512x1024) hz]
  rw [View.readCov_unit_zero (S := S512x1024) _ hz]
  simp only [View.readAt_eq_ld, h2.read_unread, h3.read_unread, h4.read_unread, h5.read_unread, h7.read_unread, View.ld_unit_zero (S := S512x128) hz, View.ld_unit_zero (S := S128x1024) hz, View.ld_unit_zero (S := S3840x1024) hz, View.ld_unit_zero (S := S1x30) hz, View.ld_unit_zero (S := S512x1024) hz]

/-- THE LAST STEP (k = 7), the output block: the accumulator after its two updates, copied. -/
theorem out_C (c : Dev nD) (i : grid0.Coords) (a2 : Memref sig .tc .vmem S512x128 .f32) (h2 : a2.IsWhole) (a3 : Memref sig .tc .vmem S128x1024 .bf16) (h3 : a3.IsWhole) (a4 : Memref sig .tc .vmem S3840x1024 .bf16) (h4 : a4.IsWhole) (a5 : Memref sig .tc .vmem S1x30 .f32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i) (x0 : Vec F S512x128 .f32) (x1 : Vec F S128x1024 .bf16) (x2 : Vec F S3840x1024 .bf16) (x3 : Vec F S1x30 .f32) (xs0 : Vec F S512x1024 .f32) :
    out0_C_4 c i a2 h2 a3 h3 a4 h4 a5 h5 a6 h6 a7 h7 hc0 hc1 x0 x1 x2 x3 xs0 = step x0 x1 x2 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  rw [View.canon_unit_zero hz]
  sl_unfold_words
  rw [View.readCov_cons_unit_zero (S := S512x1024) _ hz, View.readCov_unit_zero (S := S512x1024) _ hz]
  simp only [View.readAt_eq_ld, h2.read_unread, h3.read_unread, h4.read_unread, h5.read_unread, h7.read_unread, View.ld_unit_zero (S := S512x128) hz, View.ld_unit_zero (S := S128x1024) hz, View.ld_unit_zero (S := S3840x1024) hz, View.ld_unit_zero (S := S1x30) hz, View.ld_unit_zero (S := S512x1024) hz]

end Cert.KernelIdeal.Pieces

end
-- ==== Proof.Spec.lean ====
/-
  What both programs compute, entry by entry, over the extended reals.

  A radial-basis layer with 1024 input features, 30 centres and 1024 outputs, on a batch of 2048 rows: output (b, o) is
  the linear part `∑ i, x b i * base o i` plus the basis part `∑ j, φ b j * spline j o`, where the pair `j = 30 i + g` of
  feature `i` and centre `g` has the basis value `φ b j = exp ((c (x b i - γ g)) (x b i - γ g))`, `c` the program's float
  literal for -20. The linear part contracts `x` with the ROWS of `base` (the weight matrix is used transposed).
-/
import Idealize.ShloMosaic.PureOps.Ideal
import Idealize.ShloMosaic.Lib.ValueIdx

noncomputable section

namespace Cert.Spec

open Idealize.ShloMosaic Idealize.ShloMosaic.ValueIdx

/-- One radial basis value: `exp ((c (x - γ)) (x - γ))`, `c` the program's literal for -20. -/
def rbf (x γ : EReal) : EReal := Ideal.exp (Ideal.ofBits .f32 0xC1A00000#32 * (x - γ) * (x - γ))

/-- The feature of pair `j` (pairs numbered feature-major): `j / 30`. -/
def featOf (j : Fin 30720) : Fin 1024 := ⟨j.val / 30, by have := j.isLt; omega⟩
/-- The centre of pair `j`: `j % 30`. -/
def centreOf (j : Fin 30720) : Fin 30 := ⟨j.val % 30, Nat.mod_lt _ (by norm_num)⟩

theorem featOf_val (j : Fin 30720) : (featOf j).val = j.val / 30 := rfl
theorem centreOf_val (j : Fin 30720) : (centreOf j).val = j.val % 30 := rfl

/-- THE LAYER at output (b, o). -/
def layer (X : (⟨2, ![2048, 1024]⟩ : Shape).Idx → EReal) (W : (⟨2, ![30720, 1024]⟩ : Shape).Idx → EReal)
    (B : (⟨2, ![1024, 1024]⟩ : Shape).Idx → EReal) (γ : (⟨1, ![30]⟩ : Shape).Idx → EReal) (b : Fin 2048) (o : Fin 1024) : EReal :=
  ∑ i : Fin 1024, X (ix2 b i) * B (ix2 o i)
    + ∑ j : Fin 30720, rbf (X (ix2 b (featOf j))) (γ (ix1 (centreOf j))) * W (ix2 j o)

/-- The layer as an array. -/
def layerArr (X : (⟨2, ![2048, 1024]⟩ : Shape).Idx → EReal) (W : (⟨2, ![30720, 1024]⟩ : Shape).Idx → EReal)
    (B : (⟨2, ![1024, 1024]⟩ : Shape).Idx → EReal) (γ : (⟨1, ![30]⟩ : Shape).Idx → EReal) :
    (⟨2, ![2048, 1024]⟩ : Shape).Idx → EReal := fun y => layer X W B γ (y 0) (y 1)

theorem layerArr_apply (X : (⟨2, ![2048, 1024]⟩ : Shape).Idx → EReal) (W : (⟨2, ![30720, 1024]⟩ : Shape).Idx → EReal)
    (B : (⟨2, ![1024, 1024]⟩ : Shape).Idx → EReal) (γ : (⟨1, ![30]⟩ : Shape).Idx → EReal) (b : Fin 2048) (o : Fin 1024) :
    layerArr X W B γ (ix2 b o) = layer X W B γ b o := rfl

end Cert.Spec

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.LibGroupExpand.lean ====
/-
  A per-group value repeated over the members of its group, read at an index.

  An `[a, b]` array (one value per row `i` and group `j`) is given a trailing unit axis, repeated `c` times along
  it, and the last two axes are merged: the result is the `[a, b * c]` array whose entry `(i, k)` is the value of
  row `i`'s group `k / c`. The three steps are read at an index one by one, generic in the sizes, and then composed.
-/
import Idealize.ShloMosaic.Lib.ValueIdx
import Idealize.ShloMosaic.Lib.Pipeline.Value
import Idealize.ShloMosaic.Lib.ValueLayout

noncomputable section

namespace Cert.LibGroupExpand

open Idealize.ShloMosaic Idealize.ShloMosaic.ValueIdx

variable {α : Type}

/-- An `[a, b]` array cast to `[a, b, 1]` reads, at `(i, j, u)`, the operand at `(i, j)`, whatever the unit
    coordinate `u`: both positions are `i * b + j` in row-major order. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`: the unit axis
    is the one repeated. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c]` array cast to `[a, n]` with `n = b * c` reads, at `(i, k)`, the operand at
    `(i, k / c, k % c)`: position `i * n + k` is `(i * b + k / c) * c + k % c`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (i : Fin a) (k : Fin n)
    (g : Fin b) (l : Fin c) (hg : g.val = k.val / c) (hl : l.val = k.val % c) :
    shapeCast ⟨2, ![a, n]⟩ x h (ix2 i k) = x (ix3 i g l) :=
  shapeCast_apply x h _ _ (by
    rw [Shape.rowMajor_val_three, Shape.rowMajor_val_two]
    show (i.val * b + g.val) * c + l.val = i.val * n + k.val
    have e : i.val * n = i.val * b * c := by rw [hn, Nat.mul_assoc]
    rw [hg, hl, e, Nat.add_mul, Nat.add_assoc, Nat.div_add_mod' k.val c])

/-- THE EXPANSION READ AT AN INDEX: an `[a, b]` array given a trailing unit axis, repeated `c` times along it and
    merged to `[a, n]`, `n = b * c`, reads at `(i, k)` the operand at `(i, k / c)`. -/
theorem expand_apply {a b c n : ℕ} (hn : n = b * c) (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩)
    (h3 : (⟨3, ![a, b, c]⟩ : Shape).ShapeCasts ⟨2, ![a, n]⟩) (i : Fin a) (k : Fin n)
    (g : Fin b) (hg : g.val = k.val / c) :
    shapeCast ⟨2, ![a, n]⟩ (broadcastTo ⟨3, ![a, b, c]⟩ (shapeCast ⟨3, ![a, b, 1]⟩ x h1) h2) h3 (ix2 i k) = x (ix2 i g) := by
  have hc : 0 < c := by
    rcases Nat.eq_zero_or_pos c with h0 | h0
    · have hk := k.isLt
      have e : n = 0 := by rw [hn, h0, Nat.mul_zero]
      omega
    · exact h0
  rw [shapeCast_abc_an_apply hn _ h3 i k g ⟨k.val % c, Nat.mod_lt _ hc⟩ hg rfl,
    broadcastTo_ab1_abc_apply _ h2 i g _, shapeCast_ab_ab1_apply x h1 i g _]

end Cert.LibGroupExpand

end
-- ==== Proof.LibUnitAxes.lean ====
/-
  Layout operations with a unit axis in the middle, and the four-axis regrouping of a matrix's rows, each read at
  an index and generic in the sizes.

  * An `[a, b]` array cast to `[a, 1, b]` reads the operand at `(i, j)`; an `[a, 1, b]` array broadcast to
    `[a, c, b]` reads it at `(i, 0, j)`: the middle axis is the repeated one.
  * A `[c]` vector cast to `[1, c, 1]` reads the vector at its middle coordinate; a `[1, c, 1]` array broadcast to
    `[a, c, b]` reads it at `(0, g, 0)`: only the middle coordinate survives.
  * An `[n, d]` matrix whose rows are regrouped as `[p, q, r, d]` (row `(a * q + b) * r + c` becomes `(a, b, c)`),
    the regrouping undone, and the exchange of the two middle axes of a four-axis array.
  * Two index pairs with equal coordinates are the same index.
-/
import Idealize.ShloMosaic.Lib.ValueIdx
import Idealize.ShloMosaic.Lib.Pipeline.Value
import Idealize.ShloMosaic.Lib.ValueLayout

noncomputable section

namespace Cert.LibUnitAxes

open Idealize.ShloMosaic Idealize.ShloMosaic.ValueIdx

variable {α : Type}

/-- Two matrix indices with the same row number and the same column number are equal. -/
theorem ix2_congr {n0 n1 : ℕ} {p p' : Fin n0} {q q' : Fin n1} (hp : p.val = p'.val) (hq : q.val = q'.val) :
    (ix2 p q : (⟨2, ![n0, n1]⟩ : Shape).Idx) = ix2 p' q' := by
  rw [Fin.ext hp, Fin.ext hq]

/-- An `[a, b]` array cast to `[a, 1, b]` reads, at `(i, u, j)`, the operand at `(i, j)`: both positions are
    `i * b + j` in row-major order. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, g, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (g : Fin c) (j : Fin b) :
    broadcastTo ⟨3, ![a, c, b]⟩ v h (ix3 i g j) = v (ix3 i (0 : Fin 1) j) := by
  refine broadcastTo_apply v h (ix3 i g j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[c]` vector cast to `[1, c, 1]` reads, at `(u, g, w)`, the vector at `g`. -/
theorem shapeCast_c_1c1_apply {c : ℕ} (x : (⟨1, ![c]⟩ : Shape).Idx → α)
    (h : (⟨1, ![c]⟩ : Shape).ShapeCasts ⟨3, ![1, c, 1]⟩) (u : Fin 1) (g : Fin c) (w : Fin 1) :
    shapeCast ⟨3, ![1, c, 1]⟩ x h (ix3 u g w) = x (ix1 g) :=
  shapeCast_apply x h _ _ (by
    have hu : u.val = 0 := by omega
    have hw : w.val = 0 := by omega
    rw [Shape.rowMajor_val_three, Shape.rowMajor_val_one]
    show g.val = (u.val * c + g.val) * 1 + w.val
    rw [hu, hw, Nat.zero_mul, Nat.zero_add, Nat.mul_one, Nat.add_zero])

/-- A `[1, c, 1]` array broadcast to `[a, c, b]` reads, at `(i, g, j)`, the operand at `(0, g, 0)`. -/
theorem broadcastTo_1c1_acb_apply {a b c : ℕ} (v : (⟨3, ![1, c, 1]⟩ : Shape).Idx → α)
    (h : (⟨3, ![1, c, 1]⟩ : Shape).Broadcasts ⟨3, ![a, c, b]⟩) (i : Fin a) (g : Fin c) (j : Fin b) :
    broadcastTo ⟨3, ![a, c, b]⟩ v h (ix3 i g j) = v (ix3 (0 : Fin 1) g (0 : Fin 1)) := by
  refine broadcastTo_apply v h (ix3 i g j) (ix3 (0 : Fin 1) g (0 : Fin 1)) fun ax => ?_
  match ax with
  | ⟨0, _⟩ => rfl
  | ⟨1, _⟩ =>
    show g.val = if c = 1 then 0 else g.val
    split
    · have := g.isLt; omega
    · rfl
  | ⟨2, _⟩ => rfl

/-- An `[n, d]` matrix with its rows regrouped as `[p, q, r, d]` reads, at `(a, b, c, e)`, the matrix at row
    `(a * q + b) * r + c` and column `e`. -/
theorem shapeCast_nd_pqrd_apply {n p q r d : ℕ} (x : (⟨2, ![n, d]⟩ : Shape).Idx → α)
    (h : (⟨2, ![n, d]⟩ : Shape).ShapeCasts ⟨4, ![p, q, r, d]⟩) (a : Fin p) (b : Fin q) (c : Fin r) (e : Fin d)
    (k : Fin n) (hk : k.val = (a.val * q + b.val) * r + c.val) :
    shapeCast ⟨4, ![p, q, r, d]⟩ x h (ix4 a b c e) = x (ix2 k e) :=
  shapeCast_apply x h _ _ (by
    rw [Shape.rowMajor_val_four, Shape.rowMajor_val_two]
    show k.val * d + e.val = ((a.val * q + b.val) * r + c.val) * d + e.val
    rw [hk])

/-- A `[p, q, r, d]` array with its first three axes merged into the rows of an `[n, d]` matrix reads, at row
    `(a * q + b) * r + c` and column `e`, the array at `(a, b, c, e)`. -/
theorem shapeCast_pqrd_nd_apply {n p q r d : ℕ} (x : (⟨4, ![p, q, r, d]⟩ : Shape).Idx → α)
    (h : (⟨4, ![p, q, r, d]⟩ : Shape).ShapeCasts ⟨2, ![n, d]⟩) (k : Fin n) (e : Fin d)
    (a : Fin p) (b : Fin q) (c : Fin r) (hk : k.val = (a.val * q + b.val) * r + c.val) :
    shapeCast ⟨2, ![n, d]⟩ x h (ix2 k e) = x (ix4 a b c e) :=
  shapeCast_apply x h _ _ (by
    rw [Shape.rowMajor_val_four, Shape.rowMajor_val_two]
    show ((a.val * q + b.val) * r + c.val) * d + e.val = k.val * d + e.val
    rw [hk])

/-- A four-axis array with its two middle axes exchanged reads, at `(a, c, b, e)`, the operand at `(a, b, c, e)`. -/
theorem transpose_ix4_0213_apply {p q r d : ℕ} (x : (⟨4, ![p, q, r, d]⟩ : Shape).Idx → α)
    (h : (⟨4, ![p, q, r, d]⟩ : Shape).Transposes [0, 2, 1, 3] ⟨4, ![p, r, q, d]⟩)
    (a : Fin p) (c : Fin r) (b : Fin q) (e : Fin d) :
    transpose ⟨4, ![p, r, q, d]⟩ [0, 2, 1, 3] x h (ix4 a c b e) = x (ix4 a b c e) :=
  transpose_apply _ x h _ _ fun z => match z with
    | ⟨0, _⟩ => rfl | ⟨1, _⟩ => rfl | ⟨2, _⟩ => rfl | ⟨3, _⟩ => rfl

end Cert.LibUnitAxes

end
-- ==== Proof.Payload.lean ====
/-
  The kernel body's arithmetic read at an entry, over the extended reals.

  At a grid point the body holds a 512 × 128 block `x` of the input, the 128 × 1024 block `w` of the transposed base
  weights, the 3840 × 1024 block `v` of the regrouped spline weights, and the 30 centres `γ`. Entry (r, o) of the
  accumulator gains first `∑ l, x r l * w l o` (a matrix product into a zero accumulator, added), then
  `∑ p, φ r p * v p o`, where the basis matrix `φ` has, in column `p = g * 128 + l` (centre-major), the radial value
  `exp ((c * (x r l - γ g)) * (x r l - γ g))` with `c` the program's literal for -20. A change of float format is the
  identity here, and the body's casts and broadcasts only re-index: `x` gets a unit middle axis that is repeated over
  the centres, `γ` gets unit outer axes that are repeated over rows and features, and the 512 × 30 × 128 result is
  flattened to 512 × 3840.
-/
import proofs.«176416_j11879879540919_2_alg».proof.Proof.Gen.KernelIdeal.Skeleton
import proofs.«176416_j11879879540919_2_alg».proof.Proof.Spec
import proofs.«176416_j11879879540919_2_alg».proof.Proof.LibHostRead
import proofs.«176416_j11879879540919_2_alg».proof.Proof.LibGroupExpand
import proofs.«176416_j11879879540919_2_alg».proof.Proof.LibUnitAxes
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Spec

/-- The zeroed accumulator is zero at every entry. -/
theorem zero_apply (y : S512x1024.Idx) : (k0_pay1 (F := Ideal)) y = 0 := by
  unfold k0_pay1
  simp only [shapeCast_self]
  exact Ideal.ofBits_zero_f32

/-- THE LINEAR UPDATE at entry (r, o): the accumulator's entry plus row r of `x` times column o of `w`. -/
theorem linear_apply (x0 : Vec Ideal S512x128 .f32) (x1 : Vec Ideal S128x1024 .bf16) (acc : Vec Ideal S512x1024 .f32)
    (r : Fin 512) (o : Fin 1024) :
    k0_pay2 x0 x1 acc (ix2 r o) = acc (ix2 r o) + ∑ l : Fin 128, x0 (ix2 r l) * x1 (ix2 l o) := by
  unfold k0_pay2
  simp only [shapeCast_self]
  show acc (ix2 r o) + _ = _
  refine congrArg (acc (ix2 r o) + ·) ?_
  exact LibHR.plainMatmul_zero_apply (φ₁ := .bf16) (φ₂ := .bf16) 512 128 1024
    Facts₀.dot_S512x128_S128x1024_S512x1024_1_0_0_1_n_n_wf x0 x1 r o

/-- The difference `x r l - γ g` laid out over rows, centres and features, as the body builds it. -/
abbrev diff (x0 : Vec Ideal S512x128 .f32) (x3 : Vec Ideal S1x30 .f32) : FVec Ideal S512x30x128 .f32 :=
  subf (broadcastTo S512x30x128 (shapeCast S512x1x128 x0 Facts₀.shapeCasts_S512x128_S512x1x128) Facts₀.broadcasts_S512x1x128_S512x30x128)
    (broadcastTo S512x30x128 (shapeCast S1x30x1 (shapeCast S30 x3 Facts₀.shapeCasts_S1x30_S30) Facts₀.shapeCasts_S30_S1x30x1) Facts₀.broadcasts_S1x30x1_S512x30x128)

/-- At (r, g, l) it is `x r l - γ g`. -/
theorem diff_apply (x0 : Vec Ideal S512x128 .f32) (x3 : Vec Ideal S1x30 .f32) (r : Fin 512) (g : Fin 30) (l : Fin 128) :
    diff x0 x3 (ix3 r g l) = x0 (ix2 r l) - x3 (ix2 (0 : Fin 1) g) := by
  show broadcastTo S512x30x128 _ _ (ix3 r g l) - broadcastTo S512x30x128 _ _ (ix3 r g l) = _
  rw [LibUnitAxes.broadcastTo_a1b_acb_apply, LibUnitAxes.shapeCast_ab_a1b_apply,
    LibUnitAxes.broadcastTo_1c1_acb_apply, LibUnitAxes.shapeCast_c_1c1_apply, shapeCast_1a_a_apply]

/-- THE BASIS MATRIX at (r, p): the radial value of feature `p % 128` of the block against centre `p / 128`. -/
theorem basis_apply (x0 : Vec Ideal S512x128 .f32) (x3 : Vec Ideal S1x30 .f32) (r : Fin 512) (p : Fin 3840)
    (g : Fin 30) (l : Fin 128) (hg : g.val = p.val / 128) (hl : l.val = p.val % 128) :
    shapeCast S512x3840 (exp (mulf (mulf (broadcast S512x30x128 (Scalar.ofBits (F := Ideal) .f32 0xC1A00000#32)) (diff x0 x3)) (diff x0 x3)))
      Facts₀.shapeCasts_S512x30x128_S512x3840 (ix2 r p) = rbf (x0 (ix2 r l)) (x3 (ix2 (0 : Fin 1) g)) := by
  rw [LibGroupExpand.shapeCast_abc_an_apply (a := 512) (b := 30) (c := 128) (n := 3840) rfl _ _ r p g l hg hl]
  show Ideal.exp (Ideal.ofBits .f32 0xC1A00000#32 * diff x0 x3 (ix3 r g l) * diff x0 x3 (ix3 r g l)) = _
  rw [diff_apply]
  rfl

/-- THE BASIS UPDATE at entry (r, o): the accumulator's entry plus row r of the basis matrix times column o of `v`;
    the basis entry named through any feature `l p` and centre `g p` with the right numbers. -/
theorem basis_update_apply (x0 : Vec Ideal S512x128 .f32) (x3 : Vec Ideal S1x30 .f32) (x2 : Vec Ideal S3840x1024 .bf16)
    (acc : Vec Ideal S512x1024 .f32) (r : Fin 512) (o : Fin 1024)
    (g : Fin 3840 → Fin 30) (l : Fin 3840 → Fin 128) (hg : ∀ p, (g p).val = p.val / 128) (hl : ∀ p, (l p).val = p.val % 128) :
    k0_pay3 x0 x3 x2 acc (ix2 r o)
      = acc (ix2 r o) + ∑ p : Fin 3840, rbf (x0 (ix2 r (l p))) (x3 (ix2 (0 : Fin 1) (g p))) * x2 (ix2 p o) := by
  unfold k0_pay3
  simp only [shapeCast_self]
  show acc (ix2 r o) + _ = _
  refine congrArg (acc (ix2 r o) + ·) ?_
  refine (LibHR.plainMatmul_zero_apply (φ₁ := .bf16) (φ₂ := .bf16) 512 3840 1024
    Facts₀.dot_S512x3840_S3840x1024_S512x1024_1_0_0_1_n_n_wf _ x2 r o).trans ?_
  exact Finset.sum_congr rfl fun p _ => congrArg (· * x2 (ix2 p o)) (basis_apply x0 x3 r p (g p) (l p) (hg p) (hl p))

end Cert.KernelIdeal.Payload

end
-- ==== Proof.Accumulate.lean ====
/-
  The accumulator across the reduction steps of one batch tile, entry by entry.

  Within batch tile m the grid visits the reduction tiles k = 0 … 7 in order (points 8 m + k). The accumulator is
  zeroed at k = 0 and every point adds its GAIN to each entry (r, o): the linear products of its block of `x` with its
  block of base weights plus the basis products with its block of spline weights. So after point n the accumulator's
  entry is the sum of the gains of the points 8 (n / 8) … n — by induction on the point, never by enumerating the grid —
  and at k = 7 the output block is a copy of the accumulator.
-/
import proofs.«176416_j11879879540919_2_alg».proof.Proof.ScratchPieces
import proofs.«176416_j11879879540919_2_alg».proof.Proof.Payload

noncomputable section

namespace Cert.KernelIdeal.Accum

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-- Inside a tile the 3840 pairs are numbered centre-major: pair `p` has centre `p / 128` -/
def centreIn (p : Fin 3840) : Fin 30 := ⟨p.val / 128, by have := p.isLt; omega⟩
/-- and feature `p % 128` of the tile. -/
def featIn (p : Fin 3840) : Fin 128 := ⟨p.val % 128, Nat.mod_lt _ (by norm_num)⟩

/-- What one point adds to entry (r, o) of the accumulator, from its four input blocks. -/
def gain (x0 : Vec Ideal S512x128 .f32) (x1 : Vec Ideal S128x1024 .bf16) (x2 : Vec Ideal S3840x1024 .bf16)
    (x3 : Vec Ideal S1x30 .f32) (r : Fin 512) (o : Fin 1024) : EReal :=
  ∑ l : Fin 128, x0 (ix2 r l) * x1 (ix2 l o)
    + ∑ p : Fin 3840, rbf (x0 (ix2 r (featIn p))) (x3 (ix2 (0 : Fin 1) (centreIn p))) * x2 (ix2 p o)

/-- The two updates of a point, at an entry: the entry plus the point's gain (addition is associative). -/
theorem step_apply (x0 : Vec Ideal S512x128 .f32) (x1 : Vec Ideal S128x1024 .bf16) (x2 : Vec Ideal S3840x1024 .bf16)
    (x3 : Vec Ideal S1x30 .f32) (acc : Vec Ideal S512x1024 .f32) (r : Fin 512) (o : Fin 1024) :
    Pieces.step x0 x1 x2 x3 acc (ix2 r o) = acc (ix2 r o) + gain x0 x1 x2 x3 r o := by
  show k0_pay3 x0 x3 x2 (k0_pay2 x0 x1 acc) (ix2 r o) = _
  rw [Payload.basis_update_apply x0 x3 x2 _ r o centreIn featIn (fun _ => rfl) (fun _ => rfl), Payload.linear_apply, add_assoc]
  rfl

/-- At the first reduction step the accumulator ends at the point's two updates of zero. -/
theorem acc_first (c : Dev nD) (t : Fin cfg0.N) (h0 : t.val % 8 = 0) :
    (outsAt0 m c t.val t.isLt).2 = Pieces.step (iblk m c 0 t) (iblk m c 1 t) (iblk m c 2 t) (iblk m c 3 t) (k0_pay1 (F := Ideal)) := by
  have h1 : ¬t.val % 8 = 7 := by omega
  have e := congrArg Prod.snd (outsAt0_A m c t h0 h1)
  dsimp only at e
  exact e.trans
    (Pieces.sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))

/-- At a later step it ends at the point's two updates of what the point before left. -/
theorem acc_next (c : Dev nD) (t : Fin cfg0.N) (h0 : ¬t.val % 8 = 0) :
    (outsAt0 m c t.val t.isLt).2 = Pieces.step (iblk m c 0 t) (iblk m c 1 t) (iblk m c 2 t) (iblk m c 3 t)
      (outsAt0 m c (t.val - 1) (Nat.lt_of_le_of_lt (Nat.sub_le _ _) t.isLt)).2 := by
  by_cases h1 : t.val % 8 = 7
  · have e := congrArg Prod.snd (outsAt0_C m c t h0 h1)
    dsimp only at e
    exact e.trans
      (Pieces.sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2)
  · have e := congrArg Prod.snd (outsAt0_B m c t h0 h1)
    dsimp only at e
    exact e.trans
      (Pieces.sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
        (outsAt0 m c (t.val - 1) (Nat.lt_of_le_of_lt (Nat.sub_le _ _) t.isLt)).2)

/-- At the last step the output block is the accumulator. -/
theorem out_last (c : Dev nD) (t : Fin cfg0.N) (h1 : t.val % 8 = 7) :
    (outsAt0 m c t.val t.isLt).1 = (outsAt0 m c t.val t.isLt).2 := by
  have h0 : ¬t.val % 8 = 0 := by omega
  have e1 := congrArg Prod.fst (outsAt0_C m c t h0 h1)
  have e2 := congrArg Prod.snd (outsAt0_C m c t h0 h1)
  dsimp only at e1 e2
  exact e1.trans
    ((Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2).trans
      ((Pieces.sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2).symm.trans e2.symm))

/-- The gain of point `t` at entry (r, o). -/
def gainAt (c : Dev nD) (t : Fin cfg0.N) (r : Fin 512) (o : Fin 1024) : EReal :=
  gain (iblk m c 0 t) (iblk m c 1 t) (iblk m c 2 t) (iblk m c 3 t) r o

/-- The same with the point numbered by a natural number (zero past the grid). -/
def gainN (c : Dev nD) (n : ℕ) (r : Fin 512) (o : Fin 1024) : EReal :=
  if h : n < cfg0.N then gainAt m c ⟨n, h⟩ r o else 0

/-- At the first reduction step an entry of the accumulator ends at the point's gain: zero plus the gain. -/
theorem acc_first_apply (c : Dev nD) (t : Fin cfg0.N) (h0 : t.val % 8 = 0) (r : Fin 512) (o : Fin 1024) :
    (outsAt0 m c t.val t.isLt).2 (ix2 r o) = gainAt m c t r o :=
  (congrFun (acc_first m c t h0) (ix2 r o)).trans
    ((step_apply (iblk m c 0 t) (iblk m c 1 t) (iblk m c 2 t) (iblk m c 3 t) (k0_pay1 (F := Ideal)) r o).trans (by rw [Payload.zero_apply, zero_add]; rfl))

/-- At a later step it ends at what the point before left plus the point's gain. -/
theorem acc_next_apply (c : Dev nD) (t : Fin cfg0.N) (h0 : ¬t.val % 8 = 0) (r : Fin 512) (o : Fin 1024) :
    (outsAt0 m c t.val t.isLt).2 (ix2 r o)
      = (outsAt0 m c (t.val - 1) (Nat.lt_of_le_of_lt (Nat.sub_le _ _) t.isLt)).2 (ix2 r o) + gainAt m c t r o :=
  (congrFun (acc_next m c t h0) (ix2 r o)).trans
    (step_apply (iblk m c 0 t) (iblk m c 1 t) (iblk m c 2 t) (iblk m c 3 t) (outsAt0 m c (t.val - 1) (Nat.lt_of_le_of_lt (Nat.sub_le _ _) t.isLt)).2 r o)

/-- THE RUNNING SUM: after point `n` entry (r, o) of the accumulator is the sum of the gains of the points of `n`'s batch
    tile up to `n`. -/
theorem acc_apply (c : Dev nD) (r : Fin 512) (o : Fin 1024) : ∀ (n : ℕ) (h : n < cfg0.N),
    (outsAt0 m c n h).2 (ix2 r o) = ∑ j ∈ Finset.range (n % 8 + 1), gainN m c (n - n % 8 + j) r o
  | 0, h => by
    refine (acc_first_apply m c ⟨0, h⟩ rfl r o).trans ?_
    simp only [Nat.zero_mod, Nat.zero_add, Finset.sum_range_one, Nat.sub_zero, Nat.add_zero]
    unfold gainN
    rw [dif_pos h]
  | n + 1, h => by
    by_cases h0 : (n + 1) % 8 = 0
    · refine (acc_first_apply m c ⟨n + 1, h⟩ h0 r o).trans ?_
      simp only [h0, Nat.zero_add, Finset.sum_range_one, Nat.sub_zero, Nat.add_zero]
      unfold gainN
      rw [dif_pos h]
    · refine (acc_next_apply m c ⟨n + 1, h⟩ h0 r o).trans ?_
      show (outsAt0 m c n (Nat.lt_of_succ_lt h)).2 (ix2 r o) + _ = _
      rw [acc_apply c r o n (Nat.lt_of_succ_lt h)]
      have e1 : (n + 1) % 8 = n % 8 + 1 := by omega
      have e2 : n + 1 - (n % 8 + 1) = n - n % 8 := by omega
      have e3 : n - n % 8 + (n % 8 + 1) = n + 1 := by omega
      rw [e1, Finset.sum_range_succ _ (n % 8 + 1), e2, e3]
      refine congrArg (_ + ·) ?_
      unfold gainN
      rw [dif_pos h]

end Cert.KernelIdeal.Accum

end
-- ==== Proof.Blocks.lean ====
/-
  The blocks the kernel's windows stage at a grid point, read as entries of the four argument arrays.

  Grid point `t` is (m, k) = (t / 8, t % 8): batch tile m of 512 rows, reduction tile k of 128 input features.
  * The window on `x` stages rows `512 m + r`, features `128 k + l`.
  * The window on the base weights stages rows `128 k + l` of the TRANSPOSED (and re-formatted) weight matrix the host
    prepared: entry (l, o) is `base_weight (o, 128 k + l)`.
  * The window on the spline weights stages rows `3840 k + p` of the matrix the host REGROUPED from feature-major to
    centre-major order inside each tile (rows [8, 128, 30] → [8, 30, 128]): with p = 128 g + l, entry (p, o) is
    `spline_weight ((128 k + l) * 30 + g, o)`.
  * The window on the centres stages the whole one-row copy of `grid`.
  A change of float format is the identity over the extended reals.
-/
import proofs.«176416_j11879879540919_2_alg».proof.Proof.Gen.KernelIdeal.Frame
import proofs.«176416_j11879879540919_2_alg».proof.Proof.LibUnitAxes
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## Which block each window stages at a point -/

theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val % 8 ∧ win0_2.index t 1 = 0 :=
  (by decide +kernel : ∀ t : Fin grid0.N, win0_2.index t 0 = t.val % 8 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 8 ∧ win0_4.index t 1 = 0 :=
  (by decide +kernel : ∀ t : Fin grid0.N, win0_4.index t 0 = t.val / 8 ∧ win0_4.index t 1 = 0)

/-! ## What the host prepared before the call -/

/-- The base weights as the call finds them: the argument transposed. -/
theorem V_base (c : Dev nD) : (V m c main_v1 : S1024x1024.Idx → EReal)
    = truncf (F := Ideal) .bf16 (transpose S1024x1024 [1, 0] (m ((c : Thread nD τ).loc main_arg2) : S1024x1024.Idx → EReal)
        Facts₀.transposes_S1024x1024_S1024x1024_1_0) Facts₀.bitsLt_bf16_f32 := by
  dsimp only [V, hostOps0]; after_results <;> rfl

/-- The spline weights as the call finds them: the argument's rows regrouped [8, 128, 30] → [8, 30, 128]. -/
theorem V_spline (c : Dev nD) : (V m c main_v5 : S30720x1024.Idx → EReal)
    = truncf (F := Ideal) .bf16 (shapeCast S30720x1024 (transpose S8x30x128x1024 [0, 2, 1, 3]
        (shapeCast S8x128x30x1024 (m ((c : Thread nD τ).loc main_arg1) : S30720x1024.Idx → EReal) Facts₀.shapeCasts_S30720x1024_S8x128x30x1024)
        Facts₀.transposes_S8x128x30x1024_S8x30x128x1024_0_2_1_3) Facts₀.shapeCasts_S8x30x128x1024_S30720x1024) Facts₀.bitsLt_bf16_f32 := by
  dsimp only [V, hostOps0]; after_results <;> rfl

/-- The centres as the call finds them: the argument as one row. -/
theorem V_grid (c : Dev nD) : (V m c main_v6 : S1x30.Idx → EReal)
    = shapeCast S1x30 (m ((c : Thread nD τ).loc main_arg3) : S30.Idx → EReal) Facts₀.shapeCasts_S30_S1x30 := by
  dsimp only [V, hostOps0]; after_results <;> rfl

/-! ## The four input blocks at an entry -/

/-- The block of `x` at point `t`, entry (r, l): `x (512 (t / 8) + r, 128 (t % 8) + l)`. -/
theorem x_block (c : Dev nD) (t : Fin cfg0.N) (r : Fin 512) (l : Fin 128) (b : Fin 2048) (i : Fin 1024)
    (hb : b.val = t.val / 8 * 512 + r.val) (hi : i.val = t.val % 8 * 128 + l.val) :
    (iblk m c 0 t : Vec Ideal S512x128 .f32) (ix2 r l) = m ((c : Thread nD τ).loc main_arg0) (ix2 b i) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = b.val; rw [(idx0 t).1, hb]; omega
  | ⟨1, _⟩ => show win0_0.index t 1 * 128 + 1 * l.val = i.val; rw [(idx0 t).2, hi]; omega

/-- The block of base weights at point `t`, entry (l, o): `base_weight (o, 128 (t % 8) + l)`. -/
theorem w_block (c : Dev nD) (t : Fin cfg0.N) (l : Fin 128) (o : Fin 1024) (i : Fin 1024)
    (hi : i.val = t.val % 8 * 128 + l.val) :
    (iblk m c 1 t : Vec Ideal S128x1024 .bf16) (ix2 l o) = m ((c : Thread nD τ).loc main_arg2) (ix2 o i) := by
  unfold iblk
  rw [View.read_apply]
  show V m c main_v1 _ = _
  rw [V_base]
  have e : (((cfg0.win 1).blk t).view.emb (ix2 l o) : S1024x1024.Idx) = ix2 i o := funext fun a => Fin.ext (by
    match a with
    | ⟨0, _⟩ => show win0_1.index t 0 * 128 + 1 * l.val = i.val; rw [(idx1 t).1, hi]; omega
    | ⟨1, _⟩ => show win0_1.index t 1 * 1024 + 1 * o.val = o.val; rw [(idx1 t).2]; omega)
  rw [e]
  exact transpose_ix2_apply _ _ i o

/-- The block of spline weights at point `t`, entry (p, o): `spline_weight ((128 (t % 8) + p % 128) * 30 + p / 128, o)`. -/
theorem v_block (c : Dev nD) (t : Fin cfg0.N) (p : Fin 3840) (o : Fin 1024) (j : Fin 30720)
    (hj : j.val = (t.val % 8 * 128 + p.val % 128) * 30 + p.val / 128) :
    (iblk m c 2 t : Vec Ideal S3840x1024 .bf16) (ix2 p o) = m ((c : Thread nD τ).loc main_arg1) (ix2 j o) := by
  have hp := p.isLt
  have ht : t.val % 8 < 8 := Nat.mod_lt _ (by norm_num)
  obtain ⟨kq, hkq⟩ : ∃ kq : Fin 30720, kq.val = t.val % 8 * 3840 + p.val := ⟨⟨_, by omega⟩, rfl⟩
  obtain ⟨kk, hkk⟩ : ∃ kk : Fin 8, kk.val = t.val % 8 := ⟨⟨_, ht⟩, rfl⟩
  obtain ⟨gg, hgg⟩ : ∃ gg : Fin 30, gg.val = p.val / 128 := ⟨⟨_, by omega⟩, rfl⟩
  obtain ⟨ll, hll⟩ : ∃ ll : Fin 128, ll.val = p.val % 128 := ⟨⟨_, by omega⟩, rfl⟩
  unfold iblk
  rw [View.read_apply]
  show V m c main_v5 _ = _
  rw [V_spline]
  have e : (((cfg0.win 2).blk t).view.emb (ix2 p o) : S30720x1024.Idx) = ix2 kq o := funext fun a => Fin.ext (by
    match a with
    | ⟨0, _⟩ => show win0_2.index t 0 * 3840 + 1 * p.val = kq.val; rw [(idx2 t).1, hkq]; omega
    | ⟨1, _⟩ => show win0_2.index t 1 * 1024 + 1 * o.val = o.val; rw [(idx2 t).2]; omega)
  rw [e]
  rw [truncf_apply]
  rw [LibUnitAxes.shapeCast_pqrd_nd_apply (n := 30720) (p := 8) (q := 30) (r := 128) (d := 1024) _ _ kq o kk gg ll
      (by rw [hkq, hkk, hgg, hll]; omega),
    LibUnitAxes.transpose_ix4_0213_apply (p := 8) (q := 128) (r := 30) (d := 1024) _ _ kk gg ll o]
  exact LibUnitAxes.shapeCast_nd_pqrd_apply (n := 30720) (p := 8) (q := 128) (r := 30) (d := 1024) _ _ kk ll gg o j
    (by rw [hj, hkk, hgg, hll])

/-- The block of centres at any point, entry (0, g): `grid g`. -/
theorem g_block (c : Dev nD) (t : Fin cfg0.N) (u : Fin 1) (g : Fin 30) :
    (iblk m c 3 t : Vec Ideal S1x30 .f32) (ix2 u g) = m ((c : Thread nD τ).loc main_arg3) (ix1 g) := by
  unfold iblk
  rw [View.read_apply]
  show V m c main_v6 _ = _
  rw [V_grid]
  have e : (((cfg0.win 3).blk t).view.emb (ix2 u g) : S1x30.Idx) = ix2 u g := funext fun a => Fin.ext (by
    match a with
    | ⟨0, _⟩ => show win0_3.index t 0 * 1 + 1 * u.val = u.val; rw [(idx3 t).1]; omega
    | ⟨1, _⟩ => show win0_3.index t 1 * 30 + 1 * g.val = g.val; rw [(idx3 t).2]; omega)
  rw [e]
  exact shapeCast_a_1a_apply _ _ u g

end Cert.KernelIdeal.Blocks

end
-- ==== Proof.LibBlockedSums.lean ====
/-
  Finite sums over a product index, as a tiled contraction meets them.

  A contraction over `A * B` columns computed block by block (an accumulator that adds one block of `B` columns
  per step) is the sum over all columns; a contraction over rows numbered `a * M + j` (row `a` of slab `j`,
  the slabs interleaved) is the sum over the slabs of the sums over their rows; a contraction padded by rows
  whose terms vanish is the contraction over the unpadded rows. All three hold in any commutative additive
  monoid, so in particular over the extended reals, where they need no finiteness: only the order and the
  grouping of the terms change, and the padding terms are exact zeros.
-/
import Mathlib.Algebra.BigOperators.Fin
import Mathlib.Algebra.BigOperators.Group.Finset.Basic
import Mathlib.Logic.Equiv.Fin.Basic
import Mathlib.Tactic.Ring
import Mathlib.Tactic.Linarith

namespace BlockedSums

variable {M : Type*} [AddCommMonoid M]

/-- Column `b` of block `a`, numbered row-major, is a column of the whole. -/
theorem idx_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B ha

/-- A sum over `A * B` columns is the sum over the `A` blocks of the sums over each block's `B` columns. -/
theorem sum_blocks (A B : ℕ) (f : Fin (A * B) → M) :
    ∑ k, f k = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- The same sum with the roles exchanged: over the `B` positions inside a block, of the sums over the blocks
    (rows numbered `a * B + j` gathered slab by slab, slab `j` holding the rows `a * B + j`). -/
theorem sum_interleaved (A B : ℕ) (f : Fin (A * B) → M) :
    ∑ k, f k = ∑ j : Fin B, ∑ a : Fin A, f ⟨a.val * B + j.val, idx_lt a j⟩ := by
  rw [sum_blocks, Finset.sum_comm]

/-- Padding rows whose terms vanish leave a sum as it was. -/
theorem sum_padded (K P : ℕ) (f : Fin (K + P) → M) (hz : ∀ k : Fin (K + P), K ≤ k.val → f k = 0) :
    ∑ k, f k = ∑ k : Fin K, f (Fin.castAdd P k) := by
  rw [Fin.sum_univ_add]
  have h0 : ∑ i : Fin P, f (Fin.natAdd K i) = 0 :=
    Finset.sum_eq_zero fun i _ => hz _ (by simp [Fin.natAdd])
  rw [h0, add_zero]

/-- An accumulator that starts from the first block's contribution and adds one block per step holds, after
    step `n`, the sum of the contributions of the blocks `0 … n`. -/
theorem acc_eq_sum (g : ℕ → M) (acc : ℕ → M) (h0 : acc 0 = g 0) (hs : ∀ n, acc (n + 1) = acc n + g (n + 1)) (n : ℕ) :
    acc n = ∑ i ∈ Finset.range (n + 1), g i := by
  induction n with
  | zero => simp [h0]
  | succ n ih => rw [hs, ih, Finset.sum_range_succ _ (n + 1)]

/-- The same for an accumulator zeroed before the first block is added. -/
theorem acc_from_zero_eq_sum (g : ℕ → M) (acc : ℕ → M) (h0 : acc 0 = 0 + g 0) (hs : ∀ n, acc (n + 1) = acc n + g (n + 1)) (n : ℕ) :
    acc n = ∑ i ∈ Finset.range (n + 1), g i :=
  acc_eq_sum g acc (by rw [h0, zero_add]) hs n

/-- The blocks `0 … A - 1` summed over a range are the blocks summed over `Fin A`. -/
theorem sum_range_eq_sum_fin (A : ℕ) (g : ℕ → M) : ∑ i ∈ Finset.range A, g i = ∑ a : Fin A, g a.val :=
  (Fin.sum_univ_eq_sum_range g A).symm

end BlockedSums
-- ==== Proof.KanSums.lean ====
/-
  The one law that joins the two sides: a radial-basis layer's two contractions, computed tile by tile, are the
  contractions over all features.

  The layer contracts over `1024` input features `i` (the linear part, terms `a i`) and over the `1024 * 30` pairs of a
  feature and a centre `g` (the basis part, terms `s i g`). Computed in `8` tiles of `128` features, tile `k` adds the
  linear terms of its features `k * 128 + l` and the basis terms of its `30 * 128` pairs, numbered centre-major inside
  the tile (pair `g * 128 + l`); computed at once, the pairs are numbered feature-major (pair `i * 30 + g`). Both are the
  same terms in another order and grouping, so the sums agree in any commutative additive monoid — in particular over
  the extended reals, with no finiteness assumed.
-/
import proofs.«176416_j11879879540919_2_alg».proof.Proof.LibBlockedSums

namespace KanSums

variable {M : Type*} [AddCommMonoid M]

/-- THE REGROUPING. `A k l` is tile `k`'s linear term of its feature `l`, `B k p` its basis term of its pair `p` (centre
    `p / 128`, feature `p % 128` of the tile), `R j` the basis term of pair `j` numbered feature-major (feature `j / 30`,
    centre `j % 30`): the tiles' totals add up to the two whole contractions. -/
theorem tiles_eq_whole {N C J : ℕ} (hN : N = 8 * 128) (hC : C = 30 * 128) (hJ : J = N * 30)
    (a : Fin N → M) (s : Fin N → Fin 30 → M)
    (A : Fin 8 → Fin 128 → M) (B : Fin 8 → Fin C → M) (R : Fin J → M)
    (hA : ∀ (k : Fin 8) (l : Fin 128) (i : Fin N), i.val = k.val * 128 + l.val → A k l = a i)
    (hB : ∀ (k : Fin 8) (p : Fin C) (i : Fin N) (g : Fin 30),
      i.val = k.val * 128 + p.val % 128 → g.val = p.val / 128 → B k p = s i g)
    (hR : ∀ (j : Fin J) (i : Fin N) (g : Fin 30), i.val = j.val / 30 → g.val = j.val % 30 → R j = s i g) :
    ∑ k : Fin 8, (∑ l : Fin 128, A k l + ∑ p : Fin C, B k p) = ∑ i : Fin N, a i + ∑ j : Fin J, R j := by
  subst hN hC hJ
  rw [Finset.sum_add_distrib]
  refine congrArg₂ (· + ·) ?_ ?_
  · rw [BlockedSums.sum_blocks 8 128 a]
    exact Finset.sum_congr rfl fun k _ => Finset.sum_congr rfl fun l _ => hA k l _ rfl
  · have e1 : ∑ j : Fin (8 * 128 * 30), R j = ∑ i : Fin (8 * 128), ∑ g : Fin 30, s i g := by
      rw [BlockedSums.sum_blocks (8 * 128) 30 R]
      refine Finset.sum_congr rfl fun i _ => Finset.sum_congr rfl fun g _ => hR _ i g ?_ ?_
      · have := g.isLt
        show i.val = (i.val * 30 + g.val) / 30
        omega
      · have := g.isLt
        show g.val = (i.val * 30 + g.val) % 30
        omega
    have e2 : ∑ i : Fin (8 * 128), ∑ g : Fin 30, s i g
        = ∑ k : Fin 8, ∑ l : Fin 128, ∑ g : Fin 30, s ⟨k.val * 128 + l.val, BlockedSums.idx_lt k l⟩ g :=
      BlockedSums.sum_blocks 8 128 (fun i => ∑ g : Fin 30, s i g)
    have e3 : ∀ k : Fin 8, ∑ p : Fin (30 * 128), B k p
        = ∑ g : Fin 30, ∑ l : Fin 128, s ⟨k.val * 128 + l.val, BlockedSums.idx_lt k l⟩ g := fun k => by
      rw [BlockedSums.sum_blocks 30 128 (B k)]
      refine Finset.sum_congr rfl fun g _ => Finset.sum_congr rfl fun l _ => hB k _ _ g ?_ ?_
      · have := l.isLt
        show k.val * 128 + l.val = k.val * 128 + (g.val * 128 + l.val) % 128
        omega
      · have := l.isLt
        show g.val = (g.val * 128 + l.val) / 128
        omega
    rw [e1, e2]
    refine Finset.sum_congr rfl fun k _ => ?_
    rw [e3 k, Finset.sum_comm]

end KanSums
-- ==== Proof.Tiles.lean ====
/-
  One batch tile's eight gains add up to the layer.

  For batch tile q and row r of the tile (row b = 512 q + r of the batch) the gains of the points (q, 0) … (q, 7) at
  entry (r, o) are, block by block, exactly the terms of the layer's two contractions at (b, o): the blocks are read
  back as entries of the argument arrays, and the regrouping law of the tiled sums does the rest.
-/
import proofs.«176416_j11879879540919_2_alg».proof.Proof.Accumulate
import proofs.«176416_j11879879540919_2_alg».proof.Proof.Blocks
import proofs.«176416_j11879879540919_2_alg».proof.Proof.KanSums

noncomputable section

namespace Cert.KernelIdeal.Tiles

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-- Grid point (q, k): batch tile q, reduction tile k. -/
def pt (q : Fin 4) (k : Fin 8) : Fin cfg0.N :=
  ⟨q.val * 8 + k.val, by have := q.isLt; have := k.isLt; rw [show cfg0.N = 32 from N_0]; omega⟩

theorem pt_val (q : Fin 4) (k : Fin 8) : (pt q k).val = q.val * 8 + k.val := rfl

/-- Pair (i, g) numbered feature-major: `30 i + g`. -/
def pairOf (i : Fin 1024) (g : Fin 30) : Fin 30720 := ⟨i.val * 30 + g.val, by have := i.isLt; have := g.isLt; omega⟩

theorem pairOf_val (i : Fin 1024) (g : Fin 30) : (pairOf i g).val = i.val * 30 + g.val := rfl

/-- One linear product of the layer at (b, o): feature `i`. -/
def linOf (X : (⟨2, ![2048, 1024]⟩ : Shape).Idx → EReal) (B : (⟨2, ![1024, 1024]⟩ : Shape).Idx → EReal)
    (b : Fin 2048) (o : Fin 1024) (i : Fin 1024) : EReal := X (ix2 b i) * B (ix2 o i)

/-- One basis product of the layer at (b, o): feature `i`, centre `g`, the pair's row `j` of the spline weights. -/
def basisOf (X : (⟨2, ![2048, 1024]⟩ : Shape).Idx → EReal) (W : (⟨2, ![30720, 1024]⟩ : Shape).Idx → EReal)
    (γ : (⟨1, ![30]⟩ : Shape).Idx → EReal) (b : Fin 2048) (o : Fin 1024) (i : Fin 1024) (g : Fin 30) (j : Fin 30720) : EReal :=
  rbf (X (ix2 b i)) (γ (ix1 g)) * W (ix2 j o)

/-- The layer is the sum of its linear products plus the sum of its basis products. -/
theorem layer_eq (X : (⟨2, ![2048, 1024]⟩ : Shape).Idx → EReal) (W : (⟨2, ![30720, 1024]⟩ : Shape).Idx → EReal)
    (B : (⟨2, ![1024, 1024]⟩ : Shape).Idx → EReal) (γ : (⟨1, ![30]⟩ : Shape).Idx → EReal) (b : Fin 2048) (o : Fin 1024) :
    layer X W B γ b o = ∑ i : Fin 1024, linOf X B b o i + ∑ j : Fin 30720, basisOf X W γ b o (featOf j) (centreOf j) j := rfl

/-- One linear product of a point's gain. -/
def linTerm (x0 : Vec Ideal S512x128 .f32) (x1 : Vec Ideal S128x1024 .bf16) (r : Fin 512) (o : Fin 1024) (l : Fin 128) : EReal :=
  x0 (ix2 r l) * x1 (ix2 l o)

/-- One basis product of a point's gain. -/
def basisTerm (x0 : Vec Ideal S512x128 .f32) (x2 : Vec Ideal S3840x1024 .bf16) (x3 : Vec Ideal S1x30 .f32)
    (r : Fin 512) (o : Fin 1024) (p : Fin 3840) : EReal :=
  rbf (x0 (ix2 r (Accum.featIn p))) (x3 (ix2 (0 : Fin 1) (Accum.centreIn p))) * x2 (ix2 p o)

/-- A gain is the sum of its linear products plus the sum of its basis products. -/
theorem gain_eq (x0 : Vec Ideal S512x128 .f32) (x1 : Vec Ideal S128x1024 .bf16) (x2 : Vec Ideal S3840x1024 .bf16)
    (x3 : Vec Ideal S1x30 .f32) (r : Fin 512) (o : Fin 1024) :
    Accum.gain x0 x1 x2 x3 r o = ∑ l : Fin 128, linTerm x0 x1 r o l + ∑ p : Fin 3840, basisTerm x0 x2 x3 r o p := rfl

/-- A linear product, read in the argument arrays: feature `i = 128 k + l` of row `b`. -/
theorem linTerm_eq (c : Dev nD) (q : Fin 4) (k : Fin 8) (r : Fin 512) (o : Fin 1024) (l : Fin 128) (b : Fin 2048)
    (hb : b.val = q.val * 512 + r.val) (i : Fin 1024) (hi : i.val = k.val * 128 + l.val) :
    linTerm (iblk m c 0 (pt q k)) (iblk m c 1 (pt q k)) r o l = linOf (m ((c : Thread nD τ).loc main_arg0)) (m ((c : Thread nD τ).loc main_arg2)) b o i := by
  have hk := k.isLt
  unfold linTerm linOf
  rw [Blocks.x_block m c (pt q k) r l b i (by rw [pt_val, hb]; omega) (by rw [pt_val, hi]; omega),
    Blocks.w_block m c (pt q k) l o i (by rw [pt_val, hi]; omega)]

/-- A basis product, read in the argument arrays: feature `i = 128 k + p % 128`, centre `g = p / 128`, pair `30 i + g`. -/
theorem basisTerm_eq (c : Dev nD) (q : Fin 4) (k : Fin 8) (r : Fin 512) (o : Fin 1024) (p : Fin 3840) (b : Fin 2048)
    (hb : b.val = q.val * 512 + r.val) (i : Fin 1024) (g : Fin 30)
    (hi : i.val = k.val * 128 + p.val % 128) (hg : g.val = p.val / 128) :
    basisTerm (iblk m c 0 (pt q k)) (iblk m c 2 (pt q k)) (iblk m c 3 (pt q k)) r o p = basisOf (m ((c : Thread nD τ).loc main_arg0)) (m ((c : Thread nD τ).loc main_arg1)) (m ((c : Thread nD τ).loc main_arg3)) b o i g (pairOf i g) := by
  have hk := k.isLt
  have hc : Accum.centreIn p = g := Fin.ext hg.symm
  unfold basisTerm basisOf
  rw [Blocks.x_block m c (pt q k) r (Accum.featIn p) b i (by rw [pt_val, hb]; omega)
      (by rw [pt_val, hi]; show k.val * 128 + p.val % 128 = (q.val * 8 + k.val) % 8 * 128 + p.val % 128; omega),
    Blocks.g_block m c (pt q k) 0 (Accum.centreIn p), hc,
    Blocks.v_block m c (pt q k) p o (pairOf i g) (by rw [pairOf_val, pt_val, hi, hg]; omega)]

/-- THE TILE'S TOTAL: the eight gains of batch tile q at entry (r, o) are the layer at (512 q + r, o). -/
theorem tile_total (c : Dev nD) (q : Fin 4) (r : Fin 512) (o : Fin 1024) (b : Fin 2048) (hb : b.val = q.val * 512 + r.val) :
    ∑ k : Fin 8, Accum.gainAt m c (pt q k) r o = layer (m ((c : Thread nD τ).loc main_arg0)) (m ((c : Thread nD τ).loc main_arg1)) (m ((c : Thread nD τ).loc main_arg2)) (m ((c : Thread nD τ).loc main_arg3)) b o := by
  rw [layer_eq]
  show ∑ k : Fin 8, (∑ l : Fin 128, linTerm (iblk m c 0 (pt q k)) (iblk m c 1 (pt q k)) r o l + ∑ p : Fin 3840, basisTerm (iblk m c 0 (pt q k)) (iblk m c 2 (pt q k)) (iblk m c 3 (pt q k)) r o p) = _
  refine KanSums.tiles_eq_whole (N := 1024) (C := 3840) (J := 30720) (by norm_num) (by norm_num) (by norm_num)
    (fun i => linOf (m ((c : Thread nD τ).loc main_arg0)) (m ((c : Thread nD τ).loc main_arg2)) b o i)
    (fun i g => basisOf (m ((c : Thread nD τ).loc main_arg0)) (m ((c : Thread nD τ).loc main_arg1)) (m ((c : Thread nD τ).loc main_arg3)) b o i g (pairOf i g))
    (fun k l => linTerm (iblk m c 0 (pt q k)) (iblk m c 1 (pt q k)) r o l)
    (fun k p => basisTerm (iblk m c 0 (pt q k)) (iblk m c 2 (pt q k)) (iblk m c 3 (pt q k)) r o p)
    (fun j => basisOf (m ((c : Thread nD τ).loc main_arg0)) (m ((c : Thread nD τ).loc main_arg1)) (m ((c : Thread nD τ).loc main_arg3)) b o (featOf j) (centreOf j) j)
    ?_ ?_ ?_
  · intro k l i hi
    exact linTerm_eq m c q k r o l b hb i hi
  · intro k p i g hi hg
    exact basisTerm_eq m c q k r o p b hb i g hi hg
  · intro j i g hi hg
    have e1 : featOf j = i := Fin.ext (by rw [featOf_val, hi])
    have e2 : centreOf j = g := Fin.ext (by rw [centreOf_val, hg])
    have e3 : pairOf i g = j := Fin.ext (by rw [pairOf_val, hi, hg]; omega)
    show basisOf (m ((c : Thread nD τ).loc main_arg0)) (m ((c : Thread nD τ).loc main_arg1)) (m ((c : Thread nD τ).loc main_arg3)) b o (featOf j) (centreOf j) j = basisOf (m ((c : Thread nD τ).loc main_arg0)) (m ((c : Thread nD τ).loc main_arg1)) (m ((c : Thread nD τ).loc main_arg3)) b o i g (pairOf i g)
    rw [e1, e2, e3]

end Cert.KernelIdeal.Tiles

end
-- ==== Proof.Final.lean ====
/-
  The kernel's result array is the layer.

  The output window writes its block back only at the last reduction step of each batch tile (points 8 q + 7), and the
  block then holds the accumulator: at entry (r, o) the eight gains of the tile, that is the layer at (512 q + r, o).
  The four blocks written back cover the 2048 × 1024 result (row b lies in the block of tile b / 512), so the array
  after the run is the layer of the argument arrays, entry by entry.
-/
import proofs.«176416_j11879879540919_2_alg».proof.Proof.Gen.KernelIdeal.Value
import proofs.«176416_j11879879540919_2_alg».proof.Proof.Tiles

noncomputable section

namespace Cert.KernelIdeal.Final

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The layer of the argument arrays, as contents of the result array. -/
abbrev result (c : Dev nD) : Buf (Elt Ideal) ((c : Thread nD τ).loc main_v7) :=
  layerArr (m ((c : Thread nD τ).loc main_arg0)) (m ((c : Thread nD τ).loc main_arg1)) (m ((c : Thread nD τ).loc main_arg2)) (m ((c : Thread nD τ).loc main_arg3))

/-- WHAT A WRITE-BACK WRITES: at a point that writes the output block back, the block is the layer's. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  have hN : t.val < 32 := lt_of_lt_of_eq t.isLt (show cfg0.N = 32 from N_0)
  rw [Value.flushed4, Accum.out_last m c t h1]
  funext y
  obtain ⟨r, o, rfl⟩ : ∃ (r : Fin 512) (o : Fin 1024), y = ix2 r o := ⟨y 0, y 1, eq_ix2 y⟩
  rw [View.read_apply]
  have hr := r.isLt
  obtain ⟨b, hb⟩ : ∃ b : Fin 2048, b.val = t.val / 8 * 512 + r.val := ⟨⟨_, by omega⟩, rfl⟩
  obtain ⟨q, hq⟩ : ∃ q : Fin 4, q.val = t.val / 8 := ⟨⟨_, by omega⟩, rfl⟩
  have e : (((cfg0.win 4).blk t).view.emb (ix2 r o) : S2048x1024.Idx) = ix2 b o := funext fun a => Fin.ext (by
    match a with
    | ⟨0, _⟩ => show win0_4.index t 0 * 512 + 1 * r.val = b.val; rw [(Blocks.idx4 t).1, hb]; omega
    | ⟨1, _⟩ => show win0_4.index t 1 * 1024 + 1 * o.val = o.val; rw [(Blocks.idx4 t).2]; omega)
  rw [e]
  show (outsAt0 m c t.val t.isLt).2 (ix2 r o) = layer _ _ _ _ b o
  rw [Accum.acc_apply m c r o t.val t.isLt, h1]
  show ∑ j ∈ Finset.range 8, _ = _
  rw [Finset.sum_range]
  refine (Finset.sum_congr rfl fun k _ => ?_).trans (Tiles.tile_total m c q r o b (by rw [hb, hq]))
  have hk := k.isLt
  have e' : t.val - 7 + k.val = q.val * 8 + k.val := by omega
  rw [e']
  unfold Accum.gainN
  rw [dif_pos (show q.val * 8 + k.val < cfg0.N from (Tiles.pt q k).isLt)]
  rfl

/-- THE COVER: row b of the result lies in the block written back at the last step of batch tile b / 512. -/
theorem cover (i : S2048x1024.Idx) :
    ∃ t : Fin cfg0.N, (cfg0.win 4).flush t = true ∧ i ∈ ((cfg0.win 4).blk t).view.set := by
  have hi0 : (i 0).val < 2048 := (i 0).isLt
  have hi1 : (i 1).val < 1024 := (i 1).isLt
  obtain ⟨t, ht⟩ : ∃ t : Fin cfg0.N, t.val = (i 0).val / 512 * 8 + 7 :=
    ⟨⟨_, by rw [show cfg0.N = 32 from N_0]; omega⟩, rfl⟩
  refine ⟨t, (flush0_4 t).mpr (by rw [ht]; omega), ?_⟩
  show i ∈ ((View.whole main_v7).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [(Blocks.idx4 t).1, ht]; omega
  | ⟨1, _⟩ =>
    show win0_4.index t 1 * 1024 ≤ (i 1).val ∧ (i 1).val < win0_4.index t 1 * 1024 + 1024
    rw [(Blocks.idx4 t).2]; omega

/-- THE RESULT ARRAY after the run is the layer of the argument arrays. -/
theorem final (c : Dev nD) : (dats m 0 c).arrAt 4 cfg0.N = result m c :=
  (dats m 0 c).arrAt_eq_of_cover 4 (result m c) (flushed_eq m c) (cover)

/-- The kernel's run, read: the result at the layer, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.Reference.lean ====
/-
  The reference program computes the layer.

  The host program forms `x b i - γ g` over [2048, 1024, 30] by two broadcasts, squares it, scales by the literal for
  -20, exponentiates, flattens the last two axes feature-major (pair `30 i + g`), contracts with `spline`, and adds the
  contraction of `x` with the rows of `base`. Read at an output (b, o) through the generated one-operation-at-a-time
  lemmas this is the layer's two sums; the only arithmetic is that `c * (d * d) = (c * d) * d` on the extended reals
  (multiplication there is associative), the order in which the kernel multiplies.
-/
import proofs.«176416_j11879879540919_2_alg».proof.Proof.Gen.ReferenceIdeal.Read
import proofs.«176416_j11879879540919_2_alg».proof.Proof.Spec

noncomputable section

namespace Cert.ReferenceIdeal.RefValue

open Cert.ReferenceIdeal Cert.ReferenceIdeal.Read Idealize.ShloMosaic Idealize.ShloMosaic.ValueIdx Cert.Spec

/-- One basis entry of the reference, at row b and pair j: the radial value of feature `j / 30` against centre `j % 30`. -/
theorem basis_apply (x0 : S2048x1024.Idx → EReal) (x3 : S30.Idx → EReal) (b : Fin 2048) (j : Fin 30720) :
    val_main_v10 (F := Ideal) x0 x3 (ix2 b j) = rbf (x0 (ix2 b (featOf j))) (x3 (ix1 (centreOf j))) := by
  have hb := b.isLt
  have hj := j.isLt
  rw [val_main_v10_apply, val_main_v9_apply, val_main_v8_apply, val_main_v7_apply, val_main_cst_apply,
    val_main_v6_apply, val_main_v5_apply, val_main_v3_apply, val_main_v4_apply, val_main_v1_apply, val_main_v2_apply]
  have eA : idx_main_v1 (idx_main_v3 (idx_main_v10 (ix2 b j))) = ix2 b (featOf j) := funext fun a => Fin.ext (by
    match a with
    | ⟨0, _⟩ => show (b.val * 30720 + j.val) / 30720 = b.val; omega
    | ⟨1, _⟩ => show (b.val * 30720 + j.val) / 30 % 1024 = j.val / 30; omega)
  have eB : idx_main_v2 (idx_main_v4 (idx_main_v10 (ix2 b j))) = ix1 (centreOf j) := funext fun a => Fin.ext (by
    match a with
    | ⟨0, _⟩ => show (b.val * 30720 + j.val) % 30 = j.val % 30; omega)
  rw [eA, eB]
  show Ideal.exp (Ideal.ofBits .f32 0xC1A00000#32 * ((x0 _ - x3 _) * (x0 _ - x3 _))) = _
  unfold rbf
  rw [mul_assoc]

/-- THE REFERENCE'S RESULT is the layer of its arguments. -/
theorem result_eq (x0 : S2048x1024.Idx → EReal) (x1 : S30720x1024.Idx → EReal) (x2 : S1024x1024.Idx → EReal)
    (x3 : S30.Idx → EReal) : val_main_v12 (F := Ideal) x0 x1 x2 x3 = layerArr x0 x1 x2 x3 := by
  funext y
  obtain ⟨b, o, rfl⟩ : ∃ (b : Fin 2048) (o : Fin 1024), y = ix2 b o := ⟨y 0, y 1, eq_ix2 y⟩
  rw [layerArr_apply]
  unfold layer
  rw [val_main_v12_apply, val_main_v0_apply, val_main_v11_apply]
  refine congrArg₂ (· + ·) (Finset.sum_congr rfl fun i _ => ?_) (Finset.sum_congr rfl fun j _ => ?_)
  · have el : lidx_main_v0 (ix2 b o) i = ix2 b i := funext fun a => Fin.ext (by
      match a with
      | ⟨0, _⟩ => rfl
      | ⟨1, _⟩ => rfl)
    have er : ridx_main_v0 (ix2 b o) i = ix2 o i := funext fun a => Fin.ext (by
      match a with
      | ⟨0, _⟩ => rfl
      | ⟨1, _⟩ => rfl)
    rw [el, er]
  · have el : lidx_main_v11 (ix2 b o) j = ix2 b j := funext fun a => Fin.ext (by
      match a with
      | ⟨0, _⟩ => rfl
      | ⟨1, _⟩ => rfl)
    have er : ridx_main_v11 (ix2 b o) j = ix2 j o := funext fun a => Fin.ext (by
      match a with
      | ⟨0, _⟩ => rfl
      | ⟨1, _⟩ => rfl)
    rw [el, er, basis_apply]

end Cert.ReferenceIdeal.RefValue

end
-- ==== Proof.lean ====
/-
  A radial-basis layer computed tile by tile equals the layer computed at once, over the extended reals.

  The layer maps a batch `x` [2048, 1024] to `x · baseᵀ + φ(x) · spline`, where `φ(x)` [2048, 30720] holds, for feature `i`
  and centre `g`, the value `exp (-20 (x b i - γ g)²)` in column `30 i + g`.

  The kernel walks a 4 × 8 grid: batch tile m (512 rows) and reduction tile k (128 features). At each point it adds to a
  512 × 1024 accumulator the product of its block of `x` with a block of the transposed base weights and the product of
  the block's basis values — laid out centre-major inside the tile, column `128 g + l` — with a block of the spline weights
  whose rows the host regrouped to match; the accumulator is zeroed at k = 0 and copied to the output block at k = 7.
  The reference forms the whole basis matrix feature-major and contracts once.

  Entry by entry both are the same finite sums of the same products: the kernel's in eight groups per batch tile and in
  another order inside each group, the basis exponent multiplied as `(c d) d` where the reference has `c (d d)`. Addition
  and multiplication on the extended reals are commutative and associative, so the two agree for all inputs, finite or
  not; the precondition is not used. A change of float format is the identity at this instance, and the ideal pass
  rewrote nothing, so the idealized kernel is the kernel's own text.

  The modules: Spec (the layer), KanSums (the regrouping of the tiled sums), ScratchPieces (what a grid point leaves
  in the accumulator and the output), Payload (the body's arithmetic at an entry), Accumulate (the accumulator as a
  running sum over a batch tile), Blocks (the staged blocks as entries of the arguments), Tiles (a batch tile's total
  is the layer), Final (the result array), Reference (the reference is the layer).
-/
import proofs.«176416_j11879879540919_2_alg».proof.Defs
import proofs.«176416_j11879879540919_2_alg».proof.Proof.Gen.Kernel
import proofs.«176416_j11879879540919_2_alg».proof.Proof.Gen.Kernel.Frame
import proofs.«176416_j11879879540919_2_alg».proof.Proof.Gen.KernelIdeal
import proofs.«176416_j11879879540919_2_alg».proof.Proof.Gen.KernelIdeal.Frame
import proofs.«176416_j11879879540919_2_alg».proof.Proof.Gen.KernelIdeal.Value
import proofs.«176416_j11879879540919_2_alg».proof.Proof.Gen.ReferenceIdeal
import proofs.«176416_j11879879540919_2_alg».proof.Proof.Gen.ReferenceIdeal.Run
import proofs.«176416_j11879879540919_2_alg».proof.Proof.Gen.ReferenceIdeal.Read
import proofs.«176416_j11879879540919_2_alg».proof.Proof.Gen.Pre_finite_inputs
import proofs.«176416_j11879879540919_2_alg».proof.Proof.Final
import proofs.«176416_j11879879540919_2_alg».proof.Proof.Reference
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- From memories that agree on the arguments both programs end with the layer of those arguments as their result. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v12_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
